-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v100)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S1000x128 : Shape := ⟨2, ![1000, 128]⟩
abbrev S5000x128 : Shape := ⟨2, ![5000, 128]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S5000x128 : S_.BroadcastsInDim S5000x128 (![] : Fin 0 → Fin S5000x128.rank)
  reducesTo_S5000x128_S_d0_1 : S5000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : FVec F S1000x128 .f32) (main_arg2 : FVec F S5000x128 .f32) (main_arg3 : IVec S2x1600000 32) (main_arg4 : IVec S2x1600000 32) (main_arg5 : FVec F S256x128 .f32) (main_arg6 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S5000x128 .f32 := Host.absf main_arg2
  let main_cst_2 : FVec F S_ .f32 := constant S_ .f32 0x7F800000#32
  let main_v10 : FVec F S5000x128 .f32 := broadcastInDim S5000x128 ![] bcast_S_S5000x128 main_cst_2
  let main_v11 : IVec S5000x128 1 := cmpf .olt main_v9 main_v10
  let main_c_3 : IVec S_ 1 := constantI S_ 1 1#1
  let main_v12 : IVec S_ 1 := (fun x v => Host.reduce IntOp.andi x v reducesTo_S5000x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S50000x256 : Shape := ⟨2, ![50000, 256]⟩
abbrev S1000x128 : Shape := ⟨2, ![1000, 128]⟩
abbrev S5000x128 : Shape := ⟨2, ![5000, 128]⟩
abbrev S2x1600000 : Shape := ⟨2, ![2, 1600000]⟩
abbrev S256x128 : Shape := ⟨2, ![256, 128]⟩
abbrev S128 : Shape := ⟨1, ![128]⟩
abbrev S50000x128 : Shape := ⟨2, ![50000, 128]⟩
abbrev S5000x256 : Shape := ⟨2, ![5000, 256]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 146
  | .vmem => 16
  | .smem => 0
  | _ => 0

abbrev hbmTy0_0 (i : Nat) : BufTy := match i % 128 with
  | 0 => ⟨S50000x256, .f32⟩
  | 1 => ⟨S1000x128, .f32⟩
  | 2 => ⟨S5000x128, .f32⟩
  | 3 => ⟨S2x1600000, .i32⟩
  | 4 => ⟨S2x1600000, .i32⟩
  | 5 => ⟨S256x128, .f32⟩
  | 6 => ⟨S128, .f32⟩
  | 7 => ⟨S50000x128, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S50000, .f32⟩
  | 16 => ⟨S1600000x1, .i32⟩
  | 17 => ⟨S50000, .f32⟩
  | 18 => ⟨S_, .f32⟩
  | 19 => ⟨S50000, .f32⟩
  | 20 => ⟨S1600000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S50000x128, .bf16⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .bf16⟩
  | 52 => ⟨S1600000x128, .f32⟩
  | 53 => ⟨S_, .f32⟩
  | 54 => ⟨S50000x128, .f32⟩
  | 55 => ⟨S1600000x1, .i32⟩
  | 56 => ⟨S50000x128, .f32⟩
  | 57 => ⟨S50000x1, .f32⟩
  | 58 => ⟨S50000x128, .f32⟩
  | 59 => ⟨S50000x128, .f32⟩
  | 60 => ⟨S50000x128, .bf16⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .bf16⟩
  | 70 => ⟨S1600000x128, .f32⟩
  | 71 => ⟨S_, .f32⟩
  | 72 => ⟨S50000x128, .f32⟩
  | 73 => ⟨S1600000x1, .i32⟩
  | 74 => ⟨S50000x128, .f32⟩
  | 75 => ⟨S1x1600000, .i32⟩
  | 76 => ⟨S1600000, .i32⟩
  | 77 => ⟨S1x1600000, .i32⟩
  | 78 => ⟨S1600000, .i32⟩
  | 79 => ⟨S_, .f32⟩
  | 80 => ⟨S1600000, .f32⟩
  | 81 => ⟨S_, .f32⟩
  | 82 => ⟨S50000, .f32⟩
  | 83 => ⟨S1600000x1, .i32⟩
  | 84 => ⟨S50000, .f32⟩
  | 85 => ⟨S_, .f32⟩
  | 86 => ⟨S50000, .f32⟩
  | 87 => ⟨S1600000x1, .i32⟩
  | 88 => ⟨S50000, .f32⟩
  | 89 => ⟨S_, .f32⟩
  | 90 => ⟨S50000, .f32⟩
  | 91 => ⟨S50000, .i1⟩
  | 92 => ⟨S_, .f32⟩
  | 93 => ⟨S50000, .f32⟩
  | 94 => ⟨S50000, .f32⟩
  | 95 => ⟨S_, .f32⟩
  | 96 => ⟨S_, .f32⟩
  | 97 => ⟨S50000, .f32⟩
  | 98 => ⟨S50000, .f32⟩
  | 99 => ⟨S_, .f32⟩
  | 100 => ⟨S50000, .f32⟩
  | 101 => ⟨S50000, .i1⟩
  | 102 => ⟨S_, .f32⟩
  | 103 => ⟨S50000, .f32⟩
  | 104 => ⟨S50000, .f32⟩
  | 105 => ⟨S_, .f32⟩
  | 106 => ⟨S_, .f32⟩
  | 107 => ⟨S50000, .f32⟩
  | 108 => ⟨S50000, .f32⟩
  | 109 => ⟨S50000x128, .bf16⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .bf16⟩
  | 119 => ⟨S1600000x128, .f32⟩
  | 120 => ⟨S_, .f32⟩
  | 121 => ⟨S50000x128, .f32⟩
  | 122 => ⟨S1600000x1, .i32⟩
  | 123 => ⟨S50000x128, .f32⟩
  | 124 => ⟨S50000x1, .f32⟩
  | 125 => ⟨S50000x128, .f32⟩
  | 126 => ⟨S50000x128, .f32⟩
  | 127 => ⟨S50000x128, .bf16⟩
  | _ => ⟨S50000x256, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .bf16⟩
  | 9 => ⟨S1600000x128, .f32⟩
  | 10 => ⟨S_, .f32⟩
  | 11 => ⟨S50000x128, .f32⟩
  | 12 => ⟨S1600000x1, .i32⟩
  | 13 => ⟨S50000x128, .f32⟩
  | 14 => ⟨S1x128, .f32⟩
  | 15 => ⟨S50000x1, .f32⟩
  | 16 => ⟨S50000x1, .f32⟩
  | 17 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S2000x128, .f32⟩
  | .local _ .vmem, ⟨6, _⟩ => ⟨S2000x128, .f32⟩
  | .local _ .vmem, ⟨7, _⟩ => ⟨S2000x1, .f32⟩
  | .local _ .vmem, ⟨8, _⟩ => ⟨S2000x1, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_c_11 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_13 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_15 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_cst_17 : Ref sig .tc := ⟨.hbm, 92, rfl⟩
abbrev main_v62 : Ref sig .tc := ⟨.hbm, 93, rfl⟩
abbrev main_v63 : Ref sig .tc := ⟨.hbm, 94, rfl⟩
abbrev main_cst_18 : Ref sig .tc := ⟨.hbm, 95, rfl⟩
abbrev main_call2_v0 : Ref sig .tc := ⟨.hbm, 96, rfl⟩
abbrev main_call2_v1 : Ref sig .tc := ⟨.hbm, 97, rfl⟩
abbrev main_v64 : Ref sig .tc := ⟨.hbm, 98, rfl⟩
abbrev main_cst_19 : Ref sig .tc := ⟨.hbm, 99, rfl⟩
abbrev main_v65 : Ref sig .tc := ⟨.hbm, 100, rfl⟩
abbrev main_v66 : Ref sig .tc := ⟨.hbm, 101, rfl⟩
abbrev main_cst_20 : Ref sig .tc := ⟨.hbm, 102, rfl⟩
abbrev main_v67 : Ref sig .tc := ⟨.hbm, 103, rfl⟩
abbrev main_v68 : Ref sig .tc := ⟨.hbm, 104, rfl⟩
abbrev main_cst_21 : Ref sig .tc := ⟨.hbm, 105, rfl⟩
abbrev main_call3_v0 : Ref sig .tc := ⟨.hbm, 106, rfl⟩
abbrev main_call3_v1 : Ref sig .tc := ⟨.hbm, 107, rfl⟩
abbrev main_v69 : Ref sig .tc := ⟨.hbm, 108, rfl⟩
abbrev main_v70 : Ref sig .tc := ⟨.hbm, 109, rfl⟩
abbrev main_c_22 : Ref sig .tc := ⟨.hbm, 110, rfl⟩
abbrev main_v71 : Ref sig .tc := ⟨.hbm, 111, rfl⟩
abbrev main_v72 : Ref sig .tc := ⟨.hbm, 112, rfl⟩
abbrev main_c_23 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_24 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_25 : Ref sig .tc := ⟨.hbm, 128, rfl⟩
abbrev main_v86 : Ref sig .tc := ⟨.hbm, 129, rfl⟩
abbrev main_v87 : Ref sig .tc := ⟨.hbm, 130, rfl⟩
abbrev main_c_26 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_27 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S2000x1_S2000x128 : S2000x1.Broadcasts S2000x128
  dot_S5000x256_S256x128_S5000x128_1_0_0_1_n_n_wf : DotDims.WF S5000x256 S256x128 S5000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v98) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v96) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v99) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v97) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v100) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S1000x128 : Shape := ⟨2, ![1000, 128]⟩
abbrev S5000x128 : Shape := ⟨2, ![5000, 128]⟩
abbrev S2x1600000 : Shape := ⟨2, ![2, 1600000]⟩
abbrev S256x128 : Shape := ⟨2, ![256, 128]⟩
abbrev S128 : Shape := ⟨1, ![128]⟩
abbrev S50000x128 : Shape := ⟨2, ![50000, 128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩

abbrev nBuf : Space → Nat
  | .hbm => 154
  | .vmem => 0
  | .smem => 0
  | _ => 0

abbrev hbmTy0_0 (i : Nat) : BufTy := match i % 128 with
  | 0 => ⟨S50000x256, .f32⟩
  | 1 => ⟨S1000x128, .f32⟩
  | 2 => ⟨S5000x128, .f32⟩
  | 3 => ⟨S2x1600000, .i32⟩
  | 4 => ⟨S2x1600000, .i32⟩
  | 5 => ⟨S256x128, .f32⟩
  | 6 => ⟨S128, .f32⟩
  | 7 => ⟨S50000x128, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S1600000, .f32⟩
  | 14 => ⟨S_, .f32⟩
  | 15 => ⟨S50000, .f32⟩
  | 16 => ⟨S1600000x1, .i32⟩
  | 17 => ⟨S50000, .f32⟩
  | 18 => ⟨S_, .f32⟩
  | 19 => ⟨S50000, .f32⟩
  | 20 => ⟨S1600000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S_, .f32⟩
  | 52 => ⟨S50000x128, .f32⟩
  | 53 => ⟨S1600000x1, .i32⟩
  | 54 => ⟨S50000x128, .f32⟩
  | 55 => ⟨S50000x1, .f32⟩
  | 56 => ⟨S50000x128, .f32⟩
  | 57 => ⟨S50000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S50000x128, .f32⟩
  | 69 => ⟨S1600000x1, .i32⟩
  | 70 => ⟨S50000x128, .f32⟩
  | 71 => ⟨S50000x1, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S50000x128, .f32⟩
  | 78 => ⟨S1x1600000, .i32⟩
  | 79 => ⟨S1600000, .i32⟩
  | 80 => ⟨S1x1600000, .i32⟩
  | 81 => ⟨S1600000, .i32⟩
  | 82 => ⟨S_, .f32⟩
  | 83 => ⟨S1600000, .f32⟩
  | 84 => ⟨S_, .f32⟩
  | 85 => ⟨S50000, .f32⟩
  | 86 => ⟨S1600000x1, .i32⟩
  | 87 => ⟨S50000, .f32⟩
  | 88 => ⟨S_, .f32⟩
  | 89 => ⟨S50000, .f32⟩
  | 90 => ⟨S1600000x1, .i32⟩
  | 91 => ⟨S50000, .f32⟩
  | 92 => ⟨S_, .f32⟩
  | 93 => ⟨S50000, .f32⟩
  | 94 => ⟨S50000, .i1⟩
  | 95 => ⟨S_, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .f32⟩
  | 103 => ⟨S50000, .f32⟩
  | 104 => ⟨S50000, .i1⟩
  | 105 => ⟨S_, .f32⟩
  | 106 => ⟨S50000, .f32⟩
  | 107 => ⟨S50000, .f32⟩
  | 108 => ⟨S_, .f32⟩
  | 109 => ⟨S_, .f32⟩
  | 110 => ⟨S50000, .f32⟩
  | 111 => ⟨S50000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S50000x128, .f32⟩
  | 123 => ⟨S1600000x1, .i32⟩
  | 124 => ⟨S50000x128, .f32⟩
  | 125 => ⟨S50000x1, .f32⟩
  | 126 => ⟨S50000x128, .f32⟩
  | 127 => ⟨S50000x128, .f32⟩
  | _ => ⟨S50000x256, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x128, .f32⟩
  | 9 => ⟨S_, .f32⟩
  | 10 => ⟨S50000x128, .f32⟩
  | 11 => ⟨S1600000x1, .i32⟩
  | 12 => ⟨S50000x128, .f32⟩
  | 13 => ⟨S50000x1, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_c_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_16 : Ref sig .tc := ⟨.hbm, 92, rfl⟩
abbrev main_v63 : Ref sig .tc := ⟨.hbm, 93, rfl⟩
abbrev main_v64 : Ref sig .tc := ⟨.hbm, 94, rfl⟩
abbrev main_cst_17 : Ref sig .tc := ⟨.hbm, 95, rfl⟩
abbrev main_v65 : Ref sig .tc := ⟨.hbm, 96, rfl⟩
abbrev main_v66 : Ref sig .tc := ⟨.hbm, 97, rfl⟩
abbrev main_cst_18 : Ref sig .tc := ⟨.hbm, 98, rfl⟩
abbrev main_call2_v0 : Ref sig .tc := ⟨.hbm, 99, rfl⟩
abbrev main_call2_v1 : Ref sig .tc := ⟨.hbm, 100, rfl⟩
abbrev main_v67 : Ref sig .tc := ⟨.hbm, 101, rfl⟩
abbrev main_cst_19 : Ref sig .tc := ⟨.hbm, 102, rfl⟩
abbrev main_v68 : Ref sig .tc := ⟨.hbm, 103, rfl⟩
abbrev main_v69 : Ref sig .tc := ⟨.hbm, 104, rfl⟩
abbrev main_cst_20 : Ref sig .tc := ⟨.hbm, 105, rfl⟩
abbrev main_v70 : Ref sig .tc := ⟨.hbm, 106, rfl⟩
abbrev main_v71 : Ref sig .tc := ⟨.hbm, 107, rfl⟩
abbrev main_cst_21 : Ref sig .tc := ⟨.hbm, 108, rfl⟩
abbrev main_call3_v0 : Ref sig .tc := ⟨.hbm, 109, rfl⟩
abbrev main_call3_v1 : Ref sig .tc := ⟨.hbm, 110, rfl⟩
abbrev main_v72 : Ref sig .tc := ⟨.hbm, 111, rfl⟩
abbrev main_c_22 : Ref sig .tc := ⟨.hbm, 112, rfl⟩
abbrev main_v73 : Ref sig .tc := ⟨.hbm, 113, rfl⟩
abbrev main_v74 : Ref sig .tc := ⟨.hbm, 114, rfl⟩
abbrev main_c_23 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_24 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_25 : Ref sig .tc := ⟨.hbm, 128, rfl⟩
abbrev main_v86 : Ref sig .tc := ⟨.hbm, 129, rfl⟩
abbrev main_v87 : Ref sig .tc := ⟨.hbm, 130, rfl⟩
abbrev main_c_26 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_27 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_28 : Ref sig .tc := ⟨.hbm, 147, rfl⟩
abbrev main_v102 : Ref sig .tc := ⟨.hbm, 148, rfl⟩
abbrev main_v103 : Ref sig .tc := ⟨.hbm, 149, rfl⟩
abbrev main_cst_29 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.KernelRun.lean ====
/-
  The idealized kernel's run, with what it leaves in memory kept.

  @main is: the projection kernel (x = product · lin_w, ten row blocks), nine stretches of host operations (the
  two views' degree counts, inverse degrees, and the gather / segment-sum passes), and the fusion kernel
  (twenty-five row blocks).  Launched from any memory, every weakly fair execution terminates without a fault, and
  every buffer that outlives a kernel ends at the contents obtained by folding those eleven segments over the
  launch memory (`Gen.W11`): in particular the result buffer, and each argument buffer, which no segment writes.
-/
import proofs.«154007_j74672301408657_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every unscoped buffer of every core at the fold of @main's segments over the launch
    memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The result buffer ends at the fold's contents for it; the two pass-through results and every argument end as
    launched. -/
theorem run_result : θ_run defs (onTc (τ := τ) (main (F := F))) ⟨m, fun _ => 0, ρ⟩ (fun r => ∀ c : Dev nD,
      r.2.mem ((c.tc : Thread nD τ).loc main_v100) = W11 m ρ c (Proc.devRef .tc main_v100)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v100 (by decide)),
     (h c _ (mem_uc main_arg1 (by decide))).trans (W11_main_arg1 m ρ c),
     (h c _ (mem_uc main_arg2 (by decide))).trans (W11_main_arg2 m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩)
    (run_all m ρ)

end Cert.KernelIdeal.Whole

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.ProjBody.lean ====
/-
  The projection kernel's body, read at an entry.

  One grid point of the first kernel loads a [5000, 256] block of `product` and the whole [256, 128] weight,
  narrows both to bf16 (the identity on the extended reals), and stores their matrix product into a zero
  accumulator.  So the stored block, at row `p` and column `q`, is  Σ_k  a(p, k) · w(k, q)  over the 256
  contraction coordinates.
-/
import proofs.«154007_j74672301408657_2_alg».proof.Proof.Gen.KernelIdeal.Skeleton
import proofs.«154007_j74672301408657_2_alg».proof.Proof.LibPlainDot

noncomputable section

open scoped BigOperators

namespace Cert.KernelIdeal.Proj

open Cert.KernelIdeal Cert.KernelIdeal.Gen Idealize.ShloMosaic Idealize.ShloMosaic.ValueIdx

/-- The left operand's index keeps the output's row. -/
theorem dot_row (j : S5000x128.Idx) (c : dot_S5000x256_S256x128_S5000x128_1_0_0_1_n_n.contr.Idx) :
    (dot_S5000x256_S256x128_S5000x128_1_0_0_1_n_n.lhsIdx j c 0).val = (j 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- The right operand's index keeps the output's column. -/
theorem dot_col (j : S5000x128.Idx) (c : dot_S5000x256_S256x128_S5000x128_1_0_0_1_n_n.contr.Idx) :
    (dot_S5000x256_S256x128_S5000x128_1_0_0_1_n_n.rhsIdx j c 1).val = (j 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The block the body stores, at (p, q): the row of the product block against the column of the weight. -/
theorem pay_apply (a : Vec Ideal S5000x256 .f32) (w : Vec Ideal S256x128 .f32) (p : Fin 5000) (q : Fin 128) :
    k0_pay1 (F := Ideal) a w (ix2 p q) = ∑ k : Fin 256, a (ix2 p k) * w (ix2 k q) := by
  unfold k0_pay1
  exact Cert.LibPlainDot.matmul_zero_apply dot_S5000x256_S256x128_S5000x128_1_0_0_1_n_n rfl rfl dot_row dot_col rfl rfl none
    (truncf .bf16 a bitsLt_bf16_f32) (truncf .bf16 w bitsLt_bf16_f32) p q

end Cert.KernelIdeal.Proj

end
-- ==== Proof.Projection.lean ====
/-
  What the projection kernel leaves in its output array.

  The grid has ten points; point `t` reads rows 5000·t … 5000·t + 4999 of `product` and the whole weight, and
  writes back rows 5000·t … 5000·t + 4999 of the output.  Each written block is the matrix product of the block it
  read with the weight, so it is the restriction of ONE function of the whole arrays,
      x(r, q) = Σ_k product(r, k) · lin_w(k, q),
  and the ten blocks tile the [50000, 128] output: the array ends holding x.
-/
import proofs.«154007_j74672301408657_2_alg».proof.Proof.Gen.KernelIdeal.Frame
import proofs.«154007_j74672301408657_2_alg».proof.Proof.ProjBody
import Idealize.ShloMosaic.Lib.Pipeline.Value

set_option maxRecDepth 16384

noncomputable section

open scoped BigOperators

namespace Cert.KernelIdeal.Proj

open Cert.KernelIdeal Cert.KernelIdeal.Gen Idealize.ShloMosaic Idealize.ShloMosaic.TcCoe Idealize.ShloMosaic.ValueIdx
open Idealize.SL.Sem
open Idealize.ShloMosaic.Pipeline (Dat)

/-- The projected features as one function of the two whole arrays. -/
def product (a : S50000x256.Idx → EReal) (w : S256x128.Idx → EReal) : S50000x128.Idx → EReal :=
  fun i => ∑ k : Fin 256, a (ix2 (⟨(i 0).val, idx2_lt0 i⟩ : Fin 50000) k) * w (ix2 k (⟨(i 1).val, idx2_lt1 i⟩ : Fin 128))

/-- The stored block at any index of the block. -/
theorem pay_at (a : Vec Ideal S5000x256 .f32) (w : Vec Ideal S256x128 .f32) (j : S5000x128.Idx) :
    k0_pay1 (F := Ideal) a w j
      = ∑ k : Fin 256, a (ix2 (⟨(j 0).val, idx2_lt0 j⟩ : Fin 5000) k) * w (ix2 k (⟨(j 1).val, idx2_lt1 j⟩ : Fin 128)) := by
  obtain ⟨p, q, rfl⟩ : ∃ (p : Fin 5000) (q : Fin 128), j = ix2 p q := ⟨j 0, j 1, eq_ix2 j⟩
  exact pay_apply a w p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the product block and the output block move together along the
    rows, everything else stays at block 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem idx_onto : ∀ (q0 : Fin 10), ∃ t : Fin cfg0.N, win0_2.index t = ![q0.val, 0] :=
  (by decide +kernel : ∀ (q0 : Fin 10), ∃ t : Fin grid0.N, win0_2.index t = ![q0.val, 0])

/-- What point `t` writes back is block `t` of the product of the arrays as the kernel finds them. -/
theorem flushed_eq (c : Dev nD) (t : Fin cfg0.N) :
    (dat0 V c).flushed 2 t = ((cfg0.win 2).blk t).view.read (Elt Ideal) (product (V c main_arg0) (V c main_arg5)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  refine (pay_at (iblk0 V c 0 t) (iblk0 V c 1 t) j).trans ?_
  show _ = product (V c main_arg0) (V c main_arg5) (((cfg0.win 2).blk t).view.emb j)
  unfold product
  refine Finset.sum_congr rfl fun k _ => ?_
  have hj0 : (j 0).val < 5000 := (j 0).isLt
  have hj1 : (j 1).val < 128 := (j 1).isLt
  refine congrArg₂ (· * ·) ?_ ?_
  · show V c main_arg0 (((cfg0.win 0).blk t).view.emb (ix2 (⟨(j 0).val, idx2_lt0 j⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · show V c main_arg5 (((cfg0.win 1).blk t).view.emb (ix2 k (⟨(j 1).val, idx2_lt1 j⟩ : Fin 128))) = _
    refine congrArg (V c main_arg5) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the output is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The ten row blocks tile the output. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the kernel: the product of the two arrays the kernel found. -/
theorem final (c : Dev nD) : (dat0 V c).arrAt 2 cfg0.N = product (V c main_arg0) (V c main_arg5) :=
  (dat0 V c).arrAt_eq_of_cover 2 (product (V c main_arg0) (V c main_arg5)) (fun t _ => flushed_eq V c t) cover

end Cert.KernelIdeal.Proj

end
-- ==== Proof.LibColumn.lean ====
/-
  A column of per-row values used against a matrix.

  A vector of length `a` written as an `[a, 1]` column (a reshape that appends a unit axis) holds, at row `i`, the
  vector's entry `i`; and an `[a, 1]` column broadcast along the second axis to `[a, b]` holds, at `(p, c)`, the
  column's entry of row `p`, whatever the column coordinate `c`. Both are read off the general index lemmas for a
  shape cast (equal row-major positions) and for a broadcast (unit axes read at 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.FuseBody.lean ====
/-
  The fusion kernel's body, read at an entry.

  One grid point of the second kernel loads a [2000, 128] block of each view's unnormalised sum, the matching
  [2000, 1] columns of inverse node degrees, and the [1, 128] bias row.  It scales each view by one half and
  then by its column (repeated along the 128 features), adds the two views, and adds the bias row (repeated down
  the 2000 rows).  So the stored block, at row `p` and feature `q`, is
      ((h · v(p,q)) · dv(p,0)  +  (h · b(p,q)) · db(p,0))  +  β(0,q).
-/
import proofs.«154007_j74672301408657_2_alg».proof.Proof.Gen.KernelIdeal.Skeleton
import proofs.«154007_j74672301408657_2_alg».proof.Proof.LibColumn
import Idealize.ShloMosaic.Lib.ValueLayout
import Idealize.ShloMosaic.Lib.ValueIdx
import Idealize.ShloMosaic.Lib.Pipeline.Value

noncomputable section

namespace Cert.KernelIdeal.Fuse

open Cert.KernelIdeal Cert.KernelIdeal.Gen Idealize.ShloMosaic Idealize.ShloMosaic.ValueIdx

/-- The weight the body splats: the float pattern of one half, as an extended real. -/
abbrev half : Ideal .f32 := Scalar.ofBits (F := Ideal) .f32 0x3F000000#32

/-- The block the body stores, at (p, q). -/
theorem pay_apply (v b : Vec Ideal S2000x128 .f32) (dv db : Vec Ideal S2000x1 .f32) (β : Vec Ideal S1x128 .f32)
    (p : Fin 2000) (q : Fin 128) :
    k1_pay1 (F := Ideal) v b dv db β (ix2 p q)
      = ((half * v (ix2 p q)) * dv (ix2 p (0 : Fin 1)) + (half * b (ix2 p q)) * db (ix2 p (0 : Fin 1)))
          + β (ix2 (0 : Fin 1) q) := by
  unfold k1_pay1
  simp only [shapeCast_self]
  simp only [addf_apply, mulf_apply, broadcast_apply, Cert.LibColumn.broadcastTo_a1_ab_apply, broadcastTo_1b_ab_apply]

end Cert.KernelIdeal.Fuse

end
-- ==== Proof.Fusion.lean ====
/-
  What the fusion kernel leaves in its output array.

  The grid has twenty-five points; point `t` reads rows 2000·t … 2000·t + 1999 of each view's unnormalised sum
  and of each view's column of inverse node degrees, and the one bias row, and writes back the same rows of the
  output.  Each written block is the restriction of ONE function of the whole arrays,
      out(r, q) = ((h · v(r,q)) · dv(r,0) + (h · b(r,q)) · db(r,0)) + β(0,q),
  and the twenty-five blocks tile the [50000, 128] output: the array ends holding that function.
-/
import proofs.«154007_j74672301408657_2_alg».proof.Proof.Gen.KernelIdeal.Frame
import proofs.«154007_j74672301408657_2_alg».proof.Proof.FuseBody
import Idealize.ShloMosaic.Lib.Pipeline.Value

set_option maxRecDepth 16384

noncomputable section

namespace Cert.KernelIdeal.Fuse

open Cert.KernelIdeal Cert.KernelIdeal.Gen Idealize.ShloMosaic Idealize.ShloMosaic.TcCoe Idealize.ShloMosaic.ValueIdx
open Idealize.SL.Sem
open Idealize.ShloMosaic.Pipeline (Dat)

/-- The fused output as one function of the five whole arrays. -/
def fused (v : S50000x128.Idx → EReal) (dv : S50000x1.Idx → EReal) (b : S50000x128.Idx → EReal)
    (db : S50000x1.Idx → EReal) (β : S1x128.Idx → EReal) : S50000x128.Idx → EReal :=
  fun i => ((half * v i) * dv (ix2 (⟨(i 0).val, idx2_lt0 i⟩ : Fin 50000) (0 : Fin 1))
      + (half * b i) * db (ix2 (⟨(i 0).val, idx2_lt0 i⟩ : Fin 50000) (0 : Fin 1)))
    + β (ix2 (0 : Fin 1) (⟨(i 1).val, idx2_lt1 i⟩ : Fin 128))

/-- The stored block at any index of the block. -/
theorem pay_at (v b : Vec Ideal S2000x128 .f32) (dv db : Vec Ideal S2000x1 .f32) (β : Vec Ideal S1x128 .f32)
    (j : S2000x128.Idx) :
    k1_pay1 (F := Ideal) v b dv db β j
      = ((half * v j) * dv (ix2 (⟨(j 0).val, idx2_lt0 j⟩ : Fin 2000) (0 : Fin 1))
          + (half * b j) * db (ix2 (⟨(j 0).val, idx2_lt0 j⟩ : Fin 2000) (0 : Fin 1)))
        + β (ix2 (0 : Fin 1) (⟨(j 1).val, idx2_lt1 j⟩ : Fin 128)) := by
  obtain ⟨p, q, rfl⟩ : ∃ (p : Fin 2000) (q : Fin 128), j = ix2 p q := ⟨j 0, j 1, eq_ix2 j⟩
  exact pay_apply v b dv db β p q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the twenty-five points: the four row-blocked inputs move with the output along the
    rows; the bias row and every column coordinate stay at block 0. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = win1_5.index t (0 : Fin 2)
    ∧ win1_3.index t (1 : Fin 2) = 0
    ∧ win1_4.index t (0 : Fin 2) = 0
    ∧ win1_4.index t (1 : Fin 2) = 0
    ∧ win1_5.index t (1 : Fin 2) = 0
    ∧ win1_5.index t (0 : Fin 2) ≤ 24 :=
  (by decide +kernel : ∀ t : Fin grid1.N, _)

/-- Every row block is some point's. -/
theorem idx_onto : ∀ (q0 : Fin 25), ∃ t : Fin cfg1.N, win1_5.index t = ![q0.val, 0] :=
  (by decide +kernel : ∀ (q0 : Fin 25), ∃ t : Fin grid1.N, win1_5.index t = ![q0.val, 0])

/-- What point `t` writes back is block `t` of the fused function of the arrays as the kernel finds them. -/
theorem flushed_eq (c : Dev nD) (t : Fin cfg1.N) :
    (dat1 V c).flushed 5 t = ((cfg1.win 5).blk t).view.read (Elt Ideal)
      (fused (V c main_v48) (V c main_v98) (V c main_v96) (V c main_v99) (V c main_v97)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz]
  obtain ⟨e0, e1, e2, e3, e4, e5, e6, e7, e8, e9, e10, e11⟩ := idx_facts t
  funext j
  refine (pay_at (iblk1 V c 0 t) (iblk1 V c 2 t) (iblk1 V c 1 t) (iblk1 V c 3 t) (iblk1 V c 4 t) j).trans ?_
  show _ = fused (V c main_v48) (V c main_v98) (V c main_v96) (V c main_v99) (V c main_v97) (((cfg1.win 5).blk t).view.emb j)
  unfold fused
  have hj0 : (j 0).val < 2000 := (j 0).isLt
  have hj1 : (j 1).val < 128 := (j 1).isLt
  have h0 : iblk1 V c 0 t j = V c main_v48 (((cfg1.win 5).blk t).view.emb j) := by
    show V c main_v48 (((cfg1.win 0).blk t).view.emb j) = _
    refine congrArg (V c main_v48) (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * (j 1).val = win1_5.index t (1 : Fin 2) * 128 + 1 * (j 1).val; omega
  have h2 : iblk1 V c 2 t j = V c main_v96 (((cfg1.win 5).blk t).view.emb j) := by
    show V c main_v96 (((cfg1.win 2).blk t).view.emb j) = _
    refine congrArg (V c main_v96) (funext fun a => Fin.ext ?_)
    match a with
    | ⟨0, _⟩ => show win1_2.index t (0 : Fin 2) * 2000 + 1 * (j 0).val = win1_5.index t (0 : Fin 2) * 2000 + 1 * (j 0).val; omega
    | ⟨1, _⟩ => show win1_2.index t (1 : Fin 2) * 128 + 1 * (j 1).val = win1_5.index t (1 : Fin 2) * 128 + 1 * (j 1).val; omega
  have h1 : iblk1 V c 1 t (ix2 (⟨(j 0).val, idx2_lt0 j⟩ : Fin 2000) (0 : Fin 1))
      = V c main_v98 (ix2 (⟨((((cfg1.win 5).blk t).view.emb j) 0).val, idx2_lt0 _⟩ : Fin 50000) (0 : Fin 1)) := by
    show V c main_v98 (((cfg1.win 1).blk t).view.emb (ix2 (⟨(j 0).val, idx2_lt0 j⟩ : Fin 2000) (0 : Fin 1))) = _
    refine congrArg (V c main_v98) (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 1 + 1 * 0 = 0; omega
  have h3 : iblk1 V c 3 t (ix2 (⟨(j 0).val, idx2_lt0 j⟩ : Fin 2000) (0 : Fin 1))
      = V c main_v99 (ix2 (⟨((((cfg1.win 5).blk t).view.emb j) 0).val, idx2_lt0 _⟩ : Fin 50000) (0 : Fin 1)) := by
    show V c main_v99 (((cfg1.win 3).blk t).view.emb (ix2 (⟨(j 0).val, idx2_lt0 j⟩ : Fin 2000) (0 : Fin 1))) = _
    refine congrArg (V c main_v99) (funext fun a => Fin.ext ?_)
    match a with
    | ⟨0, _⟩ => show win1_3.index t (0 : Fin 2) * 2000 + 1 * (j 0).val = win1_5.index t (0 : Fin 2) * 2000 + 1 * (j 0).val; omega
    | ⟨1, _⟩ => show win1_3.index t (1 : Fin 2) * 1 + 1 * 0 = 0; omega
  have h4 : iblk1 V c 4 t (ix2 (0 : Fin 1) (⟨(j 1).val, idx2_lt1 j⟩ : Fin 128))
      = V c main_v97 (ix2 (0 : Fin 1) (⟨((((cfg1.win 5).blk t).view.emb j) 1).val, idx2_lt1 _⟩ : Fin 128)) := by
    show V c main_v97 (((cfg1.win 4).blk t).view.emb (ix2 (0 : Fin 1) (⟨(j 1).val, idx2_lt1 j⟩ : Fin 128))) = _
    refine congrArg (V c main_v97) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega
  rw [h0, h1, h2, h3, h4]

/-- An index of the output is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v100).slice (win1_5.rect t)).set ↔ _
  rw [View.set_slice_whole, Rect.mem_set_unit]
  exact Iff.rfl

/-- The twenty-five row blocks tile the output. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the kernel: the fused function of the five arrays the kernel found. -/
theorem final (c : Dev nD) : (dat1 V c).arrAt 5 cfg1.N
    = fused (V c main_v48) (V c main_v98) (V c main_v96) (V c main_v99) (V c main_v97) :=
  (dat1 V c).arrAt_eq_of_cover 5 _ (fun t _ => flushed_eq V c t) cover

end Cert.KernelIdeal.Fuse

end
-- ==== Proof.RefTail.lean ====
/-
  The reference's last operations, read at an entry.

  After the two views' gather / segment-sum passes the reference multiplies each view's sum by its column of
  inverse node degrees (repeated along the features), adds the bias (repeated down the rows), scales each view
  by one half and adds the two.  Read at row `r` and feature `q` this is
      h · ((v(r,q) · dv(r)) + β(q))  +  h · ((b(r,q) · db(r)) + β(q)),
  where v, b are the views' unnormalised sums and dv, db their inverse node degrees: the four stages that are
  carried whole, never opened.
-/
import proofs.«154007_j74672301408657_2_alg».proof.Proof.RefRead

noncomputable section

namespace Cert.ReferenceIdeal.Tail

open Cert.ReferenceIdeal Cert.ReferenceIdeal.ReadP Idealize.ShloMosaic Idealize.ShloMosaic.ValueIdx

/-- The weight the reference spells: the float pattern of one half, as an extended real. -/
abbrev half : Ideal .f32 := FloatOps.ofBits (F := Ideal) .f32 0x3F000000#32

theorem col_idx (r : Fin 50000) (q : Fin 128) : idx_main_v45 (idx_main_v46 (ix2 r q)) = ix1 r :=
  funext fun a => match a with | ⟨0, _⟩ => rfl
theorem col_idx' (r : Fin 50000) (q : Fin 128) : idx_main_v96 (idx_main_v97 (ix2 r q)) = ix1 r :=
  funext fun a => match a with | ⟨0, _⟩ => rfl
theorem row_idx (r : Fin 50000) (q : Fin 128) : idx_main_v48 (idx_main_v49 (ix2 r q)) = ix1 q :=
  funext fun a => match a with | ⟨0, _⟩ => rfl
theorem row_idx' (r : Fin 50000) (q : Fin 128) : idx_main_v99 (idx_main_v100 (ix2 r q)) = ix1 q :=
  funext fun a => match a with | ⟨0, _⟩ => rfl

/-- The reference's result at (r, q), over its four carried stages and the bias. -/
theorem result_apply (x0 : (⟨S50000x256, .f32⟩ : BufTy).Contents (Elt Ideal)) (x3 x4 : (⟨S2x1600000, .i32⟩ : BufTy).Contents (Elt Ideal))
    (x5 : (⟨S256x128, .f32⟩ : BufTy).Contents (Elt Ideal)) (x6 : (⟨S128, .f32⟩ : BufTy).Contents (Elt Ideal))
    (r : Fin 50000) (q : Fin 128) :
    val_main_v106 (F := Ideal) x0 x3 x4 x5 x6 (ix2 r q)
      = half * ((val_main_v44 (F := Ideal) x0 x3 x5 (ix2 r q) * val_main_v16 (F := Ideal) x3 (ix1 r)) + x6 (ix1 q))
        + half * ((val_main_v95 (F := Ideal) x0 x4 x5 (ix2 r q) * val_main_v67 (F := Ideal) x4 (ix1 r)) + x6 (ix1 q)) := by
  rw [val_main_v106_apply, val_main_v103_apply, val_main_v102_apply, val_main_cst_28_apply, val_main_v50_apply,
    val_main_v47_apply, val_main_v46_apply, val_main_v45_apply, val_main_v49_apply, val_main_v48_apply,
    val_main_v105_apply, val_main_v104_apply, val_main_cst_29_apply, val_main_v101_apply, val_main_v98_apply,
    val_main_v97_apply, val_main_v96_apply, val_main_v100_apply, val_main_v99_apply,
    col_idx, col_idx', row_idx, row_idx']
  rfl

end Cert.ReferenceIdeal.Tail

end
-- ==== Proof.HalfLaw.lean ====
/-
  The one law that joins the two programs, on the extended reals.

  The kernel scales each view's unnormalised sum by one half first, then by the view's inverse degree, adds the
  two views, and adds the bias once:            ((h·v)·dv + (h·b)·db) + β.
  The reference normalises and adds the bias per view, and averages last:
                                                 h·((v·dv) + β) + h·((b·db) + β).
  With h = 1/2 these agree for ALL extended reals v, dv, b, db, β: a non-negative real factor distributes over
  any sum of extended reals (no cancellation of infinities is involved), products are associative, sums are
  commutative and associative, and h·β + h·β = (h + h)·β = β because both factors h are non-negative.
  So no finiteness of the inputs is used.
-/
import Idealize.ShloMosaic.PureOps.Ideal

noncomputable section

namespace Cert.Fusion

open Idealize.ShloMosaic

/-- The float pattern both programs spell for their weight denotes the real number one half. -/
theorem half_eq : Ideal.ofBits .f32 0x3F000000#32 = ((1 / 2 : ℝ) : EReal) := by
  simp [Ideal.ofBits, Ideal.ieee, -EReal.coe_mul]; norm_num

/-- Half of β, twice, is β: the two non-negative factors add up to one. -/
theorem half_add_half (h β : EReal) (hh : h = ((1 / 2 : ℝ) : EReal)) : h * β + h * β = β := by
  have h0 : (0 : EReal) ≤ h := by rw [hh]; exact_mod_cast (by norm_num : (0 : ℝ) ≤ 1 / 2)
  have h1 : h + h = 1 := by rw [hh, ← EReal.coe_add]; norm_num
  rw [← EReal.right_distrib_of_nonneg h0 h0, h1, one_mul]

/-- Scaling by one half before normalising and adding the bias once equals averaging the two normalised, biased
    views. -/
theorem fused_eq_averaged (h v dv b db β : EReal) (hh : h = ((1 / 2 : ℝ) : EReal)) :
    ((h * v) * dv + (h * b) * db) + β = h * ((v * dv) + β) + h * ((b * db) + β) := by
  have h0 : (0 : EReal) ≤ h := by rw [hh]; exact_mod_cast (by norm_num : (0 : ℝ) ≤ 1 / 2)
  have ht : h ≠ ⊤ := by rw [hh]; exact EReal.coe_ne_top _
  rw [EReal.left_distrib_of_nonneg_of_ne_top h0 ht, EReal.left_distrib_of_nonneg_of_ne_top h0 ht,
    add_add_add_comm, half_add_half h β hh, mul_assoc, mul_assoc]

end Cert.Fusion

end
-- ==== Proof.Bridge.lean ====
/-
  The two programs meet: what the kernel's host operations hand to the fusion kernel are the reference's stages.

  Between its two kernels the idealized kernel program runs, on the host, the SAME operations as the reference:
  per view the two degree counts (segment sums of ones), the guarded inverse degrees, a row gather of the
  projected features, a segment sum over hyperedges scaled by the inverse hyperedge degree, a second row gather
  and a segment sum back over nodes.  The only differences are format changes to bf16 and back around the two
  gathers — the identity on the extended reals — and that the projected features come from the first kernel
  instead of a host matrix product, which is the same array (a sum over the 256 contraction coordinates on both
  sides).  So each array the fusion kernel reads is, as a whole, a stage of the reference; the chain is never
  opened below that.
-/
import proofs.«154007_j74672301408657_2_alg».proof.Proof.RefRead
import proofs.«154007_j74672301408657_2_alg».proof.Proof.KernelRun
import proofs.«154007_j74672301408657_2_alg».proof.Proof.Projection
import proofs.«154007_j74672301408657_2_alg».proof.Proof.Fusion
import proofs.«154007_j74672301408657_2_alg».proof.Proof.RefTail
import proofs.«154007_j74672301408657_2_alg».proof.Proof.HalfLaw
import proofs.«154007_j74672301408657_2_alg».proof.Proof.LibColumn
import Idealize.ShloMosaic.Lib.StableHlo.Run
import Idealize.ShloMosaic.Lib.ValueLayout

set_option maxRecDepth 16384

noncomputable section

open scoped BigOperators

namespace Cert.Bridge

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The projected features -/

/-- An argument buffer is untouched by the first kernel. -/
theorem arg3_eq (c : Dev nD) : W1 m ρ c (Proc.devRef .tc main_arg3) = m ((c : Thread nD τ).loc main_arg3) :=
  W1_of_ne m ρ c main_arg3 (by decide)
theorem arg4_eq (c : Dev nD) : W1 m ρ c (Proc.devRef .tc main_arg4) = m ((c : Thread nD τ).loc main_arg4) :=
  W1_of_ne m ρ c main_arg4 (by decide)
theorem arg6_eq (c : Dev nD) : W1 m ρ c (Proc.devRef .tc main_arg6) = m ((c : Thread nD τ).loc main_arg6) :=
  W1_of_ne m ρ c main_arg6 (by decide)

/-- The first kernel's output array is the reference's matrix product: both are the sum over the contraction
    coordinate, entry by entry. -/
theorem features_eq (c : Dev nD) :
    W1 m ρ c (Proc.devRef .tc main_v0)
      = Cert.ReferenceIdeal.ReadP.val_main_v0 (F := Ideal) (m ((c : Thread nD τ).loc main_arg0)) (m ((c : Thread nD τ).loc main_arg5)) := by
  refine (W1_arr m ρ c 2).trans ((Cert.KernelIdeal.Proj.final (V0 m ρ) c).trans ?_)
  funext i
  rw [Cert.ReferenceIdeal.ReadP.val_main_v0_apply]
  unfold Cert.KernelIdeal.Proj.product
  refine Finset.sum_congr rfl fun k _ => ?_
  have el : Cert.ReferenceIdeal.ReadP.lidx_main_v0 i k = ix2 (⟨(i 0).val, idx2_lt0 i⟩ : Fin 50000) k :=
    funext fun a => match a with | ⟨0, _⟩ => rfl | ⟨1, _⟩ => rfl
  have er : Cert.ReferenceIdeal.ReadP.ridx_main_v0 i k = ix2 k (⟨(i 1).val, idx2_lt1 i⟩ : Fin 128) :=
    funext fun a => match a with | ⟨0, _⟩ => rfl | ⟨1, _⟩ => rfl
  rw [el, er]

/-! ## The four guarded-inverse calls, over their buffers -/

/-- The guarded inverse `where(count > 0, 1 / count, 0)` is printed as a call whose operations move their operands to
    the callee's value types and back; over the same buffers it is these three plain operations. -/
theorem where0 : (hostOps1_1 : List (HloOp τ sig (Elt Ideal)))
    = [ StableHlo.unary main_cst_4 main_call0_v0 (id : (⟨S_, .f32⟩ : BufTy).Contents (Elt Ideal) → (⟨S_, .f32⟩ : BufTy).Contents (Elt Ideal)),
        StableHlo.unary main_call0_v0 main_call0_v1 (broadcastInDim S50000 ![] bcast_S_S50000 : (⟨S_, .f32⟩ : BufTy).Contents (Elt Ideal) → (⟨S50000, .f32⟩ : BufTy).Contents (Elt Ideal)),
        StableHlo.ternary main_v13 main_v15 main_call0_v1 main_v16 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl
/-- The guarded inverse `where(count > 0, 1 / count, 0)` is printed as a call whose operations move their operands to
    the callee's value types and back; over the same buffers it is these three plain operations. -/
theorem where1 : (hostOps1_3 : List (HloOp τ sig (Elt Ideal)))
    = [ StableHlo.unary main_cst_7 main_call1_v0 (id : (⟨S_, .f32⟩ : BufTy).Contents (Elt Ideal) → (⟨S_, .f32⟩ : BufTy).Contents (Elt Ideal)),
        StableHlo.unary main_call1_v0 main_call1_v1 (broadcastInDim S50000 ![] bcast_S_S50000 : (⟨S_, .f32⟩ : BufTy).Contents (Elt Ideal) → (⟨S50000, .f32⟩ : BufTy).Contents (Elt Ideal)),
        StableHlo.ternary main_v18 main_v20 main_call1_v1 main_v21 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl
/-- The guarded inverse `where(count > 0, 1 / count, 0)` is printed as a call whose operations move their operands to
    the callee's value types and back; over the same buffers it is these three plain operations. -/
theorem where2 : (hostOps1_5 : List (HloOp τ sig (Elt Ideal)))
    = [ StableHlo.unary main_cst_18 main_call2_v0 (id : (⟨S_, .f32⟩ : BufTy).Contents (Elt Ideal) → (⟨S_, .f32⟩ : BufTy).Contents (Elt Ideal)),
        StableHlo.unary main_call2_v0 main_call2_v1 (broadcastInDim S50000 ![] bcast_S_S50000 : (⟨S_, .f32⟩ : BufTy).Contents (Elt Ideal) → (⟨S50000, .f32⟩ : BufTy).Contents (Elt Ideal)),
        StableHlo.ternary main_v61 main_v63 main_call2_v1 main_v64 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl
/-- The guarded inverse `where(count > 0, 1 / count, 0)` is printed as a call whose operations move their operands to
    the callee's value types and back; over the same buffers it is these three plain operations. -/
theorem where3 : (hostOps1_7 : List (HloOp τ sig (Elt Ideal)))
    = [ StableHlo.unary main_cst_21 main_call3_v0 (id : (⟨S_, .f32⟩ : BufTy).Contents (Elt Ideal) → (⟨S_, .f32⟩ : BufTy).Contents (Elt Ideal)),
        StableHlo.unary main_call3_v0 main_call3_v1 (broadcastInDim S50000 ![] bcast_S_S50000 : (⟨S_, .f32⟩ : BufTy).Contents (Elt Ideal) → (⟨S50000, .f32⟩ : BufTy).Contents (Elt Ideal)),
        StableHlo.ternary main_v66 main_v68 main_call3_v1 main_v69 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

/-! ## The five arrays the fusion kernel reads -/

/-- The view's unnormalised sum: gather, segment sum over hyperedges, scale by inverse hyperedge degree, gather,
    segment sum over nodes — the reference's stage for the first view, as a whole array. -/
theorem view_sum (c : Dev nD) :
    W10 m ρ c (Proc.devRef .tc main_v48)
      = Cert.ReferenceIdeal.ReadP.val_main_v44 (F := Ideal) (m ((c : Thread nD τ).loc main_arg0)) (m ((c : Thread nD τ).loc main_arg3))
          (m ((c : Thread nD τ).loc main_arg5)) := by
  generalize hX : Cert.ReferenceIdeal.ReadP.val_main_v44 (F := Ideal) (m ((c : Thread nD τ).loc main_arg0)) (m ((c : Thread nD τ).loc main_arg3))
    (m ((c : Thread nD τ).loc main_arg5)) = X
  simp only [W10, W9, W8, W7, W6, W5, W4, W3, W2, where0, where1, where2, where3]
  after_results_simp
  rw [features_eq m ρ c, arg3_eq m ρ c, ← hX]
  rfl

/-- The same for the second view. -/
theorem buy_sum (c : Dev nD) :
    W10 m ρ c (Proc.devRef .tc main_v96)
      = Cert.ReferenceIdeal.ReadP.val_main_v95 (F := Ideal) (m ((c : Thread nD τ).loc main_arg0)) (m ((c : Thread nD τ).loc main_arg4))
          (m ((c : Thread nD τ).loc main_arg5)) := by
  generalize hX : Cert.ReferenceIdeal.ReadP.val_main_v95 (F := Ideal) (m ((c : Thread nD τ).loc main_arg0)) (m ((c : Thread nD τ).loc main_arg4))
    (m ((c : Thread nD τ).loc main_arg5)) = X
  simp only [W10, W9, W8, W7, W6, W5, W4, W3, W2, where0, where1, where2, where3]
  after_results_simp
  rw [features_eq m ρ c, arg4_eq m ρ c, ← hX]
  rfl

/-- The first view's column of inverse node degrees is the reference's guarded inverse, written as a column. -/
theorem view_deg (c : Dev nD) (r : Fin 50000) :
    W10 m ρ c (Proc.devRef .tc main_v98) (ix2 r (0 : Fin 1))
      = Cert.ReferenceIdeal.ReadP.val_main_v16 (F := Ideal) (m ((c : Thread nD τ).loc main_arg3)) (ix1 r) := by
  have h : W10 m ρ c (Proc.devRef .tc main_v98)
      = shapeCast S50000x1 (Cert.ReferenceIdeal.ReadP.val_main_v16 (F := Ideal) (m ((c : Thread nD τ).loc main_arg3))) shapeCasts_S50000_S50000x1 := by
    generalize hX : Cert.ReferenceIdeal.ReadP.val_main_v16 (F := Ideal) (m ((c : Thread nD τ).loc main_arg3)) = X
    simp only [W10, W9, W8, W7, W6, W5, W4, W3, W2, where0, where1, where2, where3]
    after_results_simp
    rw [arg3_eq m ρ c, ← hX]
    rfl
  rw [h]
  exact Cert.LibColumn.shapeCast_a_a1_apply _ _ r 0

/-- The same for the second view. -/
theorem buy_deg (c : Dev nD) (r : Fin 50000) :
    W10 m ρ c (Proc.devRef .tc main_v99) (ix2 r (0 : Fin 1))
      = Cert.ReferenceIdeal.ReadP.val_main_v67 (F := Ideal) (m ((c : Thread nD τ).loc main_arg4)) (ix1 r) := by
  have h : W10 m ρ c (Proc.devRef .tc main_v99)
      = shapeCast S50000x1 (Cert.ReferenceIdeal.ReadP.val_main_v67 (F := Ideal) (m ((c : Thread nD τ).loc main_arg4))) shapeCasts_S50000_S50000x1 := by
    generalize hX : Cert.ReferenceIdeal.ReadP.val_main_v67 (F := Ideal) (m ((c : Thread nD τ).loc main_arg4)) = X
    simp only [W10, W9, W8, W7, W6, W5, W4, W3, W2, where0, where1, where2, where3]
    after_results_simp
    rw [arg4_eq m ρ c, ← hX]
    rfl
  rw [h]
  exact Cert.LibColumn.shapeCast_a_a1_apply _ _ r 0

/-- The bias row is the bias vector written as one row. -/
theorem bias_row (c : Dev nD) (q : Fin 128) :
    W10 m ρ c (Proc.devRef .tc main_v97) (ix2 (0 : Fin 1) q) = m ((c : Thread nD τ).loc main_arg6) (ix1 q) := by
  have h : W10 m ρ c (Proc.devRef .tc main_v97)
      = shapeCast S1x128 (m ((c : Thread nD τ).loc main_arg6)) shapeCasts_S128_S1x128 := by
    simp only [W10, W9, W8, W7, W6, W5, W4, W3, W2, where0, where1, where2, where3]
    after_results_simp
    rw [arg6_eq m ρ c]
    rfl
  rw [h]
  exact shapeCast_a_1a_apply _ _ 0 q

/-! ## The result -/

/-- What the kernel program leaves in its result buffer is the reference's result, entry by entry: the fusion
    kernel's closed form over the five arrays above, against the reference's tail over the same four stages and
    the bias, joined by the one-half law. -/
theorem result_eq (c : Dev nD) :
    W11 m ρ c (Proc.devRef .tc main_v100)
      = Cert.ReferenceIdeal.ReadP.val_main_v106 (F := Ideal) (m ((c : Thread nD τ).loc main_arg0)) (m ((c : Thread nD τ).loc main_arg3))
          (m ((c : Thread nD τ).loc main_arg4)) (m ((c : Thread nD τ).loc main_arg5)) (m ((c : Thread nD τ).loc main_arg6)) := by
  refine (W11_arr m ρ c 5).trans ((Cert.KernelIdeal.Fuse.final (V10 m ρ) c).trans ?_)
  funext i
  obtain ⟨r, q, rfl⟩ : ∃ (r : Fin 50000) (q : Fin 128), i = ix2 r q := ⟨i 0, i 1, eq_ix2 i⟩
  rw [Cert.ReferenceIdeal.Tail.result_apply]
  show ((Cert.KernelIdeal.Fuse.half * W10 m ρ c (Proc.devRef .tc main_v48) (ix2 r q)) * W10 m ρ c (Proc.devRef .tc main_v98) (ix2 r (0 : Fin 1))
        + (Cert.KernelIdeal.Fuse.half * W10 m ρ c (Proc.devRef .tc main_v96) (ix2 r q)) * W10 m ρ c (Proc.devRef .tc main_v99) (ix2 r (0 : Fin 1)))
      + W10 m ρ c (Proc.devRef .tc main_v97) (ix2 (0 : Fin 1) q) = _
  rw [view_sum m ρ c, buy_sum m ρ c, view_deg m ρ c r, buy_deg m ρ c r, bias_row m ρ c q]
  exact Cert.Fusion.fused_eq_averaged _ _ _ _ _ _ Cert.Fusion.half_eq

end Cert.Bridge

end
-- ==== Proof.lean ====
/-
  Hypergraph message passing over two views, fused: the kernel program against its jnp reference, on the
  extended reals.

  Both programs project the product features, x = product · lin_w, and per view (also_view, also_buy) compute
  D⁻¹ H B⁻¹ Hᵀ x by gathers and segment sums over the incidence pairs.  The reference normalises by the inverse
  node degrees, adds the bias per view, and averages:  ½·((v·dv) + β) + ½·((b·db) + β).  The kernel program
  computes x in a first kernel (ten row blocks, one matrix product each), runs the same gathers and segment sums
  on the host (with format changes to bf16 and back that are the identity here), and folds the normalisation, the
  average and the bias into a second kernel (twenty-five row blocks):  ((½·v)·dv + (½·b)·db) + β.

  The proof: each kernel's output array is one closed function of the arrays it finds (its blocks tile the
  output and each is the restriction of that function); the host operations between the kernels give, array by
  array, the reference's own stages; and the two final expressions agree for all extended reals, because a
  non-negative real factor distributes over any sum.  No finiteness of the inputs is needed for the values; the
  precondition is not opened.  The ideal pass rewrote nothing, so the kernel's idealization is its own text.
-/
import proofs.«154007_j74672301408657_2_alg».proof.Defs
import proofs.«154007_j74672301408657_2_alg».proof.Proof.Gen.Kernel
import proofs.«154007_j74672301408657_2_alg».proof.Proof.Gen.Kernel.Frame
import proofs.«154007_j74672301408657_2_alg».proof.Proof.Gen.KernelIdeal
import proofs.«154007_j74672301408657_2_alg».proof.Proof.Gen.KernelIdeal.Frame
import proofs.«154007_j74672301408657_2_alg».proof.Proof.Gen.ReferenceIdeal
import proofs.«154007_j74672301408657_2_alg».proof.Proof.Gen.Pre_finite_inputs
import proofs.«154007_j74672301408657_2_alg».proof.Proof.RefRun
import proofs.«154007_j74672301408657_2_alg».proof.Proof.RefRead
import proofs.«154007_j74672301408657_2_alg».proof.Proof.KernelRun
import proofs.«154007_j74672301408657_2_alg».proof.Proof.Bridge
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.ValueP.run (F := Ideal) m ρ)

/-- From memories that agree on the arguments both programs end with the same result array — the reference's
    last stage of the arguments — and the two pass-through arrays as launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v106 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2), ?_, ?_⟩
  · exact (θ_run Cert.KernelIdeal.defs _ _).mono
      (fun r h c => ⟨(h c).1.trans (Cert.Bridge.result_eq m ρ c), (h c).2⟩)
      (Cert.KernelIdeal.Whole.run_result m ρ)
  · refine (θ_run Cert.ReferenceIdeal.defs _ _).mono (fun r h c => ?_)
      (Cert.ReferenceIdeal.ValueP.run (F := Ideal) m' ρ')
    obtain ⟨h0, h1, h2, hrest⟩ := h c
    obtain ⟨e0, e1, e2, e3, e4, e5, e6⟩ := hagree c
    refine ⟨?_, h1.trans e1, h2.trans e2, hrest⟩
    rw [h0, Cert.ReferenceIdeal.ReadP.val_main_v106_eq, e0, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
